-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_1)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_1) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3072 : Shape := ⟨2, ![8192, 3072]⟩
abbrev S8192x1 : Shape := ⟨2, ![8192, 1]⟩
abbrev S3073x1 : Shape := ⟨2, ![3073, 1]⟩
abbrev S_ : Shape := ⟨0, ![]⟩

class Facts : Prop where
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S3073x1 : S_.BroadcastsInDim S3073x1 (![] : Fin 0 → Fin S3073x1.rank)
  reducesTo_S3073x1_S_d0_1 : S3073x1.ReducesTo [0, 1] S_

variable [Facts]

def fn {F : FTy → Type} [FloatOps F] (main_arg0 : FVec F S8192x3072 .f32) (main_arg1 : IVec S8192x1 32) (main_arg2 : FVec F S3073x1 .f32) : IVec S_ 1 :=
  let main_v0 : FVec F S8192x3072 .f32 := Host.absf main_arg0
  let main_cst : FVec F S_ .f32 := constant S_ .f32 0x7F800000#32
  let main_v1 : FVec F S8192x3072 .f32 := broadcastInDim S8192x3072 ![] bcast_S_S8192x3072 main_cst
  let main_v2 : IVec S8192x3072 1 := cmpf .olt main_v0 main_v1
  let main_c : IVec S_ 1 := constantI S_ 1 1#1
  let main_v3 : IVec S_ 1 := (fun x v => Host.reduce IntOp.andi x v reducesTo_S8192x3072_S_d0_1 h_S_) main_v2 main_c
  let main_v4 : FVec F S3073x1 .f32 := Host.absf main_arg2
  let main_cst_0 : FVec F S_ .f32 := constant S_ .f32 0x7F800000#32
  let main_v5 : FVec F S3073x1 .f32 := broadcastInDim S3073x1 ![] bcast_S_S3073x1 main_cst_0
  let main_v6 : IVec S3073x1 1 := cmpf .olt main_v4 main_v5
  let main_c_1 : IVec S_ 1 := constantI S_ 1 1#1
  let main_v7 : IVec S_ 1 := (fun x v => Host.reduce IntOp.andi x v reducesTo_S3073x1_S_d0_1 h_S_) main_v6 main_c_1
  let main_v8 : IVec S_ 1 := andi main_v3 main_v7
  main_v8
-- ==== Kernel.lean ====
abbrev S8192x3072 : Shape := ⟨2, ![8192, 3072]⟩
abbrev S8192x1 : Shape := ⟨2, ![8192, 1]⟩
abbrev S3073x1 : Shape := ⟨2, ![3073, 1]⟩
abbrev S3072x1 : Shape := ⟨2, ![3072, 1]⟩
abbrev S1x3072 : Shape := ⟨2, ![1, 3072]⟩
abbrev S1x1 : Shape := ⟨2, ![1, 1]⟩
abbrev S512x3072 : Shape := ⟨2, ![512, 3072]⟩
abbrev S512x1 : Shape := ⟨2, ![512, 1]⟩
abbrev S512 : Shape := ⟨1, ![512]⟩
abbrev S1x8192 : Shape := ⟨2, ![1, 8192]⟩
abbrev S8192x8192 : Shape := ⟨2, ![8192, 8192]⟩
abbrev S1024x1 : Shape := ⟨2, ![1024, 1]⟩
abbrev S1x2048 : Shape := ⟨2, ![1, 2048]⟩
abbrev S1024x2048 : Shape := ⟨2, ![1024, 2048]⟩
abbrev S_ : Shape := ⟨0, ![]⟩

abbrev nBuf : Space → Nat
  | .hbm => 27
  | .vmem => 14
  | .smem => 0
  | _ => 0

abbrev bufTy : (tb : Table) → Fin (tcTables nBuf tb) → BufTy
  | .hbm, ⟨0, _⟩ => ⟨S8192x3072, .f32⟩
  | .hbm, ⟨1, _⟩ => ⟨S8192x1, .i32⟩
  | .hbm, ⟨2, _⟩ => ⟨S3073x1, .f32⟩
  | .hbm, ⟨3, _⟩ => ⟨S3072x1, .f32⟩
  | .hbm, ⟨4, _⟩ => ⟨S1x3072, .f32⟩
  | .hbm, ⟨5, _⟩ => ⟨S1x1, .f32⟩
  | .hbm, ⟨6, _⟩ => ⟨S8192x1, .f32⟩
  | .hbm, ⟨7, _⟩ => ⟨S8192x1, .f32⟩
  | .hbm, ⟨8, _⟩ => ⟨S8192x1, .f32⟩
  | .hbm, ⟨9, _⟩ => ⟨S8192x1, .f32⟩
  | .hbm, ⟨10, _⟩ => ⟨S8192x1, .f32⟩
  | .hbm, ⟨11, _⟩ => ⟨S1x8192, .f32⟩
  | .hbm, ⟨12, _⟩ => ⟨S8192x8192, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S3073x1, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S512x3072, .f32⟩
  | .local _ .vmem, ⟨1, _⟩ => ⟨S512x3072, .f32⟩
  | .local _ .vmem, ⟨2, _⟩ => ⟨S1x3072, .f32⟩
  | .local _ .vmem, ⟨3, _⟩ => ⟨S1x1, .f32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S1024x1, .f32⟩
  | .local _ .vmem, ⟨9, _⟩ => ⟨S1024x1, .f32⟩
  | .local _ .vmem, ⟨10, _⟩ => ⟨S1x2048, .f32⟩
  | .local _ .vmem, ⟨11, _⟩ => ⟨S1x2048, .f32⟩
  | .local _ .vmem, ⟨12, _⟩ => ⟨S1024x2048, .f32⟩
  | .local _ .vmem, ⟨13, _⟩ => ⟨S1024x2048, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  slices_S3073x1_S3072x1_0_0 : S3073x1.Slices ![0, 0] S3072x1
  shapeCasts_S3072x1_S1x3072 : S3072x1.ShapeCasts S1x3072
  slices_S3073x1_S1x1_3072_0 : S3073x1.Slices ![3072, 0] S1x1
  inb_S512x3072_S512x3072_0_0 : ∀ a, (![0, 0] : Fin 2 → Nat) a + S512x3072.size a ≤ S512x3072.size a
  h_S512x3072 : 0 < S512x3072.numel
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S512x3072_S512 : S512x3072.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  broadcasts_S1x3072_S512x3072 : S1x3072.Broadcasts S512x3072
  broadcasts_S1x1_S512x1 : S1x1.Broadcasts S512x1
  shapeCasts_S8192x1_S1x8192 : S8192x1.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  broadcasts_S1024x1_S1024x2048 : S1024x1.Broadcasts S1024x2048
  inb_S1024x2048_S1024x2048_0_0 : ∀ a, (![0, 0] : Fin 2 → Nat) a + S1024x2048.size a ≤ S1024x2048.size a
  h_S1024x2048 : 0 < S1024x2048.numel
  reducesTo_S8192x1_S_d0_1 : S8192x1.ReducesTo [0, 1] S_
  h_S_ : 0 < S_.numel
  reducesTo_S3073x1_S_d0_1 : S3073x1.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3072.size a ≤ S8192x3072.size a
  hwx0_0 : ∀ i : grid0.Coords, EltTy.bits .f32 = 32 ∨ (Rect.block (s := S8192x3072) S512x3072.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x3072.size a ≤ S1x3072.size a
  hwx0_1 : ∀ i : grid0.Coords, EltTy.bits .f32 = 32 ∨ (Rect.block (s := S1x3072) S1x3072.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1.size a ≤ S8192x1.size a
  hwx1_0 : ∀ i : grid1.Coords, EltTy.bits .f32 = 32 ∨ (Rect.block (s := S8192x1) S1024x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x8192.size a
  hwx1_1 : ∀ i : grid1.Coords, EltTy.bits .f32 = 32 ∨ (Rect.block (s := S1x8192) S1x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x2048.size a ≤ S8192x8192.size a
  hwx1_2 : ∀ i : grid1.Coords, EltTy.bits .f32 = 32 ∨ (Rect.block (s := S8192x8192) S1024x2048.size (cc1_transform_2 i) (hinb1_2 i)).WholeWords (EltTy.packing .f32)

variable [Facts₀]

abbrev win0_0 : Pipeline.Window sig grid0 :=
  Pipeline.Window.ofSpec (Memref.whole main_arg0) S512x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S512x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v6) S1024x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1024x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x3072 : Shape := ⟨2, ![8192, 3072]⟩
abbrev S8192x1 : Shape := ⟨2, ![8192, 1]⟩
abbrev S3073x1 : Shape := ⟨2, ![3073, 1]⟩
abbrev S_ : Shape := ⟨0, ![]⟩
abbrev S8192 : Shape := ⟨1, ![8192]⟩
abbrev S1x8192 : Shape := ⟨2, ![1, 8192]⟩
abbrev S8192x8192 : Shape := ⟨2, ![8192, 8192]⟩
abbrev S8192x3073 : Shape := ⟨2, ![8192, 3073]⟩

abbrev nBuf : Space → Nat
  | .hbm => 29
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x1, .i32⟩
  | .hbm, ⟨2, _⟩ => ⟨S3073x1, .f32⟩
  | .hbm, ⟨3, _⟩ => ⟨S_, .f32⟩
  | .hbm, ⟨4, _⟩ => ⟨S8192, .f32⟩
  | .hbm, ⟨5, _⟩ => ⟨S1x8192, .f32⟩
  | .hbm, ⟨6, _⟩ => ⟨S8192x1, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x1, .f32⟩
  | .hbm, ⟨13, _⟩ => ⟨S8192x3073, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S3073x1, .f32⟩
  | .hbm, ⟨26, _⟩ => ⟨S_, .f32⟩
  | .hbm, ⟨27, _⟩ => ⟨S_, .f32⟩
  | .hbm, ⟨28, _⟩ => ⟨S_, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  reducesTo_S8192x3072_S8192_d1 : S8192x3072.ReducesTo [1] S8192
  h_S_ : 0 < S_.numel
  bcast_S8192_S1x8192_1 : S8192.BroadcastsInDim S1x8192 (![1] : Fin 1 → Fin S1x8192.rank)
  bcast_S8192_S8192x1_0 : S8192.BroadcastsInDim S8192x1 (![0] : Fin 1 → Fin S8192x1.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  bcast_S_S8192x1 : S_.BroadcastsInDim S8192x1 (![] : Fin 0 → Fin S8192x1.rank)
  concatenates_S8192x3072_S8192x1_S8192x3073_d1 : Shape.Concatenates [S8192x3072, S8192x1] S8192x3073 1
  reducesTo_S8192x1_S_d0_1 : S8192x1.ReducesTo [0, 1] S_
  reducesTo_S3073x1_S_d0_1 : S3073x1.ReducesTo [0, 1] S_
  dot_S8192x3073_S3073x1_S8192x1_1_0_0_1_n_n_wf : DotDims.WF S8192x3073 S3073x1 S8192x1 [1] [0] [0] [1] [] []

variable [Facts₀]

def dot_S8192x3073_S3073x1_S8192x1_1_0_0_1_n_n : DotDims S8192x3073 S3073x1 S8192x1 where
  lhsContracting := [1]
  rhsContracting := [0]
  lhsNonContracting := [0]
  rhsNonContracting := [1]
  lhsBatch := []
  rhsBatch := []
  wf := dot_S8192x3073_S3073x1_S8192x1_1_0_0_1_n_n_wf

class Facts : Prop extends Facts₀ where

variable [Facts]
-- ==== Proof.WholeRun.lean ====
/-
  The whole run of the idealized kernel program, with every result named.

  The program is five stretches in a row: host operations, the first pipelined call, host operations, the
  second pipelined call, host operations. The contents of the core's buffers after each stretch are a fold
  from the launch memory: a stretch of host operations applies them in order; a pipelined call replaces the
  arrays of its windows by what its write-backs leave and keeps every other buffer. Every weakly fair
  execution terminates without a fault, and in the final state every buffer that outlives the program holds
  the last fold's value; read at the three results and the three arguments, that is the statement below.
-/
import proofs.«139586_j43250320670736_2_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the prediction column, the
    loss and the pairwise matrix at the last fold's values and the three arguments as launched. -/
theorem run_results : θ_run defs (onTc (τ := τ) (main (F := F))) ⟨m, fun _ => 0, ρ⟩ (fun r => ∀ c : Dev nD,
      r.2.mem ((c.tc : Thread nD τ).loc main_v3_1) = W5 m ρ c (Proc.devRef .tc main_v3_1)
      ∧ r.2.mem ((c.tc : Thread nD τ).loc main_v18) = W5 m ρ c (Proc.devRef .tc main_v18)
      ∧ r.2.mem ((c.tc : Thread nD τ).loc main_v8) = W5 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v3_1 (by decide)),
       h c _ (mem_uc main_v18 (by decide)),
       h c _ (mem_uc main_v8 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.WholeRun

end
-- ==== Proof.LibColRowBroadcast.lean ====
/-
  Four re-layings of a vector read at one entry, over any sizes and any element type.

  * A vector of `a` entries cast to a column [a, 1]: the column at (p, 0) is entry p.
  * A vector of `b` entries cast to a row [1, b]: the row at (0, q) is entry q.
  * A column [a, 1] broadcast along the lanes to [a, b]: the result at (p, q) is the column at (p, 0).
  * A row [1, b] broadcast down the sublanes to [a, b]: the result at (p, q) is the row at (0, q).

  Between a cast and a broadcast a kernel may apply pointwise operations to the column (a square root, a clamp, a
  reciprocal); reading the two steps separately lets those be read at (p, 0) in between.
-/
import Idealize.ShloMosaic.Lib.Pipeline.Value
import Idealize.ShloMosaic.Lib.ValueIdx

noncomputable section

namespace Cert.ColRowBroadcast

open Idealize.ShloMosaic Idealize.ShloMosaic.ValueIdx

/-- A vector of `a` entries cast to a column reads, at (p, 0), entry `p`. -/
theorem colCast_apply {α : Type} {a : ℕ} (u : (⟨1, ![a]⟩ : Shape).Idx → α)
    (hc : (⟨1, ![a]⟩ : Shape).ShapeCasts ⟨2, ![a, 1]⟩) (p : Fin a) (z : Fin 1) :
    shapeCast ⟨2, ![a, 1]⟩ u hc (ix2 p z) = u (ix1 p) := by
  refine shapeCast_apply u hc (ix2 p z) (ix1 p) ?_
  rw [Shape.rowMajor_val_one, Shape.rowMajor_val_two]
  show p.val = p.val * 1 + z.val
  have := z.isLt
  omega

/-- A vector of `b` entries cast to a row reads, at (0, q), entry `q`. -/
theorem rowCast_apply {α : Type} {b : ℕ} (u : (⟨1, ![b]⟩ : Shape).Idx → α)
    (hc : (⟨1, ![b]⟩ : Shape).ShapeCasts ⟨2, ![1, b]⟩) (z : Fin 1) (q : Fin b) :
    shapeCast ⟨2, ![1, b]⟩ u hc (ix2 z q) = u (ix1 q) := by
  refine shapeCast_apply u hc (ix2 z q) (ix1 q) ?_
  rw [Shape.rowMajor_val_one, Shape.rowMajor_val_two]
  show q.val = z.val * b + q.val
  have hz : z.val = 0 := by have := z.isLt; omega
  rw [hz, Nat.zero_mul, Nat.zero_add]

/-- A column broadcast along the lanes reads, at (p, q), the column at (p, 0). -/
theorem colBroadcast_apply {α : Type} {a b : ℕ} (w : (⟨2, ![a, 1]⟩ : Shape).Idx → α)
    (hb : (⟨2, ![a, 1]⟩ : Shape).Broadcasts ⟨2, ![a, b]⟩) (p : Fin a) (q : Fin b) :
    broadcastTo ⟨2, ![a, b]⟩ w hb (ix2 p q) = w (ix2 p (0 : Fin 1)) := by
  refine broadcastTo_apply w hb (ix2 p q) (ix2 p (0 : Fin 1)) fun c => ?_
  match c with
  | ⟨0, _⟩ =>
    show p.val = if a = 1 then 0 else p.val
    split
    · have := p.isLt; omega
    · rfl
  | ⟨1, _⟩ =>
    exact (if_pos rfl).symm

/-- A row broadcast down the sublanes reads, at (p, q), the row at (0, q). -/
theorem rowBroadcast_apply {α : Type} {a b : ℕ} (w : (⟨2, ![1, b]⟩ : Shape).Idx → α)
    (hb : (⟨2, ![1, b]⟩ : Shape).Broadcasts ⟨2, ![a, b]⟩) (p : Fin a) (q : Fin b) :
    broadcastTo ⟨2, ![a, b]⟩ w hb (ix2 p q) = w (ix2 (0 : Fin 1) q) := by
  refine broadcastTo_apply w hb (ix2 p q) (ix2 (0 : Fin 1) q) fun c => ?_
  match c with
  | ⟨0, _⟩ =>
    exact (if_pos rfl).symm
  | ⟨1, _⟩ =>
    show q.val = if b = 1 then 0 else q.val
    split
    · have := q.isLt; omega
    · rfl

end Cert.ColRowBroadcast

end
-- ==== Proof.Bodies.lean ====
/-
  The two kernel bodies read at one entry, at the exact instance.

  The first body takes a block of 512 rows of x (each of 3072 entries), a row w of 3072 weights and a single
  bias b. It stores two columns of 512 entries: entry p of the first is the sum of row p; entry p of the
  second is the sum over k of x[p, k] · w[k], plus b. Each is a lane sum (a sum over the last axis, started
  from the neutral word 0, which contributes nothing), re-laid as a column; w is laid down the 512 rows and b
  down the column before the pointwise product and sum.

  The second body takes a column u of 1024 entries and a row v of 2048 entries and stores the 1024 × 2048
  block whose entry (p, q) is v[q] · u[p]: the row laid down the rows times the column laid along the lanes.
-/
import proofs.«139586_j43250320670736_2_alg».proof.Proof.Gen.KernelIdeal.Skeleton
import proofs.«139586_j43250320670736_2_alg».proof.Proof.LibColRowBroadcast
import Idealize.ShloMosaic.PureOps.Ideal.Laws
import Idealize.ShloMosaic.Lib.ValueIdx
import Idealize.ShloMosaic.Lib.Pipeline.Value

noncomputable section

namespace Cert.KernelIdeal.Bodies

open Cert.KernelIdeal Cert.KernelIdeal.Gen Idealize.ShloMosaic Idealize.ShloMosaic.ValueIdx Cert.ColRowBroadcast

/-- The coordinate inserted on the summed axis: row p with lane k is the entry (p, k) of the block. -/
theorem lane_index (p : Fin 512) (k : Fin 3072) :
    reduces_S512x3072_S512.lift (ix1 p) k = ix2 p k :=
  funext fun a => Fin.ext (by match a with | ⟨0, _⟩ => rfl | ⟨1, _⟩ => rfl)

/-- Entry p of the first stored column is the sum of row p of the block. -/
theorem rowSum_apply (x0 : Vec Ideal S512x3072 .f32) (p : Fin 512) (z : Fin 1) :
    k0_pay1 x0 (ix2 p z) = ∑ k : Fin 3072, x0 (ix2 p k) := by
  unfold k0_pay1
  dsimp only
  refine (colCast_apply _ shapeCasts_S512_S512x1 p z).trans ?_
  refine (Ideal.multiReduction_add_single x0 0x00000000#32 reduces_S512x3072_S512 (.inl rfl) rfl (ix1 p)).trans ?_
  exact Finset.sum_congr rfl fun k _ => congrArg x0 (lane_index p k)

/-- Entry p of the second stored column is the dot product of row p with the weights, plus the bias. -/
theorem rowDot_apply (x0 : Vec Ideal S512x3072 .f32) (x1 : Vec Ideal S1x3072 .f32) (x2 : Vec Ideal S1x1 .f32)
    (p : Fin 512) (z : Fin 1) :
    k0_pay2 x0 x1 x2 (ix2 p z)
      = (∑ k : Fin 3072, x0 (ix2 p k) * x1 (ix2 (0 : Fin 1) k)) + x2 (ix2 (0 : Fin 1) z) := by
  unfold k0_pay2
  dsimp only
  refine (addf_apply _ _ _).trans ?_
  refine congrArg₂ (· + ·) ?_ ?_
  · refine (colCast_apply _ shapeCasts_S512_S512x1 p z).trans ?_
    refine (Ideal.multiReduction_add_single _ 0x00000000#32 reduces_S512x3072_S512 (.inl rfl) rfl (ix1 p)).trans ?_
    refine Finset.sum_congr rfl fun k _ => ?_
    refine (congrArg _ (lane_index p k)).trans ?_
    refine (mulf_apply _ _ _).trans ?_
    refine congrArg (x0 (ix2 p k) * ·) ?_
    refine (rowBroadcast_apply _ broadcasts_S1x3072_S512x3072 p k).trans ?_
    exact congrFun (shapeCast_self x1 _) _
  · refine (rowBroadcast_apply _ broadcasts_S1x1_S512x1 p z).trans ?_
    exact congrFun (shapeCast_self x2 _) _

/-- Entry (p, q) of the stored block is the row's entry q times the column's entry p. -/
theorem outer_apply (x0 : Vec Ideal S1024x1 .f32) (x1 : Vec Ideal S1x2048 .f32) (p : Fin 1024) (q : Fin 2048) :
    k1_pay1 x0 x1 (ix2 p q) = x1 (ix2 (0 : Fin 1) q) * x0 (ix2 p (0 : Fin 1)) := by
  unfold k1_pay1
  refine (mulf_apply _ _ _).trans ?_
  refine congrArg₂ (· * ·) ?_ ?_
  · refine (rowBroadcast_apply _ broadcasts_S1x2048_S1024x2048 p q).trans ?_
    exact congrFun (shapeCast_self x1 _) _
  · refine (colBroadcast_apply _ broadcasts_S1024x1_S1024x2048 p q).trans ?_
    exact congrFun (shapeCast_self x0 _) _

end Cert.KernelIdeal.Bodies

end
-- ==== Proof.RegionRows.lean ====
/-
  The first pipelined call, whole array by whole array, for any contents found at its entry.

  The call walks 16 grid points; point t stages rows 512·t … 512·t + 511 of x (all 3072 columns) together with
  the whole weight row and the bias, and writes back two blocks of 512 × 1: the row sums and the row dot
  products of those rows. Entry (r, 0) of either output array is therefore written by the one point r / 512,
  from row r of x: the blocks tile the 8192 rows, so each output array ends as one function of the arrays at
  entry — the sum of each row, and the dot product of each row with the weights plus the bias.
-/
import proofs.«139586_j43250320670736_2_alg».proof.Proof.Gen.KernelIdeal.Frame
import proofs.«139586_j43250320670736_2_alg».proof.Proof.Bodies

set_option maxRecDepth 16384

noncomputable section

namespace Cert.KernelIdeal.RowStats

open Cert.KernelIdeal Cert.KernelIdeal.Gen Cert.KernelIdeal.Bodies
open Idealize.ShloMosaic Idealize.ShloMosaic.TcCoe Idealize.ShloMosaic.ValueIdx Idealize.SL.Sem
open Idealize.ShloMosaic.Pipeline (Dat)

/-- The sum of row p. -/
def rowSumAt (x : S8192x3072.Idx → EReal) (p : Fin 8192) : EReal := ∑ k : Fin 3072, x (ix2 p k)

/-- The row sums as a column. -/
def rowSums (x : S8192x3072.Idx → EReal) : S8192x1.Idx → EReal :=
  fun i => rowSumAt x ⟨(i 0).val, idx2_lt0 i⟩

/-- The dot product of row p with a weight row, plus a bias. -/
def rowDotAt (x : S8192x3072.Idx → EReal) (w : S1x3072.Idx → EReal) (b : S1x1.Idx → EReal) (p : Fin 8192) : EReal :=
  (∑ k : Fin 3072, x (ix2 p k) * w (ix2 (0 : Fin 1) k)) + b (ix2 (0 : Fin 1) (0 : Fin 1))

/-- The row dot products as a column. -/
def rowDots (x : S8192x3072.Idx → EReal) (w : S1x3072.Idx → EReal) (b : S1x1.Idx → EReal) : S8192x1.Idx → EReal :=
  fun i => rowDotAt x w b ⟨(i 0).val, idx2_lt0 i⟩

variable (V : (c : Dev nD) → (b : Ref sig .tc) → Buf (Elt Ideal) ((c : Thread nD τ).loc b))

theorem zero_offsets : (![0, 0] : Fin 2 → Nat) = fun _ => 0 := funext fun a => by fin_cases a <;> rfl

/-- The block indices over the grid: the rows of x move with the two outputs; every other index is 0. -/
theorem block_indices : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_4.index t (0 : Fin 2) = win0_3.index t (0 : Fin 2)
    ∧ win0_3.index t (1 : Fin 2) = 0 ∧ win0_4.index t (1 : Fin 2) = 0
    ∧ win0_3.index t (0 : Fin 2) ≤ 15 :=
  (by decide +kernel : ∀ t : Fin grid0.N, _)

/-- Every one of the 16 row blocks is some point's. -/
theorem block_onto : ∀ q : Fin 16, ∃ t : Fin cfg0.N, win0_3.index t = ![q.val, 0] ∧ win0_4.index t = ![q.val, 0] :=
  (by decide +kernel : ∀ q : Fin 16, ∃ t : Fin grid0.N, win0_3.index t = ![q.val, 0] ∧ win0_4.index t = ![q.val, 0])

/-- Entry (p, k) of the staged block of x at point t is x at row (block index · 512 + p), column k. -/
theorem x_block (c : Dev nD) (t : Fin cfg0.N) (p : Fin 512) (k : Fin 3072) (r : Fin 8192)
    (hr : r.val = win0_3.index t (0 : Fin 2) * 512 + p.val) :
    iblk0 V c 0 t (ix2 p k) = V c main_arg0 (ix2 r k) := by
  obtain ⟨e0, e1, -⟩ := block_indices t
  show V c main_arg0 (((cfg0.win 0).blk t).view.emb (ix2 p k)) = V c main_arg0 (ix2 r k)
  refine congrArg _ (funext fun a => Fin.ext ?_)
  match a with
  | ⟨0, _⟩ => show win0_0.index t (0 : Fin 2) * 512 + 1 * p.val = r.val; omega
  | ⟨1, _⟩ => show win0_0.index t (1 : Fin 2) * 3072 + 1 * k.val = k.val; omega

/-- The staged weight row is the whole weight row. -/
theorem w_block (c : Dev nD) (t : Fin cfg0.N) (k : Fin 3072) :
    iblk0 V c 1 t (ix2 (0 : Fin 1) k) = V c main_v1 (ix2 (0 : Fin 1) k) := by
  obtain ⟨-, -, e2, e3, -⟩ := block_indices t
  show V c main_v1 (((cfg0.win 1).blk t).view.emb (ix2 (0 : Fin 1) k)) = V c main_v1 (ix2 (0 : Fin 1) k)
  refine congrArg _ (funext fun a => Fin.ext ?_)
  match a with
  | ⟨0, _⟩ => show win0_1.index t (0 : Fin 2) * 1 + 1 * 0 = 0; omega
  | ⟨1, _⟩ => show win0_1.index t (1 : Fin 2) * 3072 + 1 * k.val = k.val; omega

/-- The staged bias is the bias. -/
theorem b_block (c : Dev nD) (t : Fin cfg0.N) (z : Fin 1) :
    iblk0 V c 2 t (ix2 (0 : Fin 1) z) = V c main_v2 (ix2 (0 : Fin 1) (0 : Fin 1)) := by
  obtain ⟨-, -, -, -, e4, e5, -⟩ := block_indices t
  show V c main_v2 (((cfg0.win 2).blk t).view.emb (ix2 (0 : Fin 1) z)) = V c main_v2 (ix2 (0 : Fin 1) (0 : Fin 1))
  have hz : z.val = 0 := by have := z.isLt; omega
  refine congrArg _ (funext fun a => Fin.ext ?_)
  match a with
  | ⟨0, _⟩ => show win0_2.index t (0 : Fin 2) * 1 + 1 * 0 = 0; omega
  | ⟨1, _⟩ => show win0_2.index t (1 : Fin 2) * 1 + 1 * z.val = 0; omega

/-- What point t writes back to the row-sum array is block t of the row sums of x. -/
theorem flushed_rowSums (c : Dev nD) (t : Fin cfg0.N) :
    (dat0 V c).flushed 3 t = ((cfg0.win 3).blk t).view.read (Elt Ideal) (rowSums (V c main_arg0)) := by
  show (cfg0.win 3).cut (grid0.coords t) ((dat0 V c).after 3 t) = _
  rw [after0_3]
  unfold out0_3
  rw [View.canon_unit_zero zero_offsets]
  simp only [View.ld_unit_zero (S := S512x3072) zero_offsets]
  obtain ⟨-, -, -, -, -, -, -, e7, -, e9⟩ := block_indices t
  funext j
  obtain ⟨p, z, rfl⟩ : ∃ (p : Fin 512) (z : Fin 1), j = ix2 p z := ⟨j 0, j 1, eq_ix2 j⟩
  show k0_pay1 (iblk0 V c 0 t) (ix2 p z) = rowSums (V c main_arg0) (((cfg0.win 3).blk t).view.emb (ix2 p z))
  refine (rowSum_apply _ p z).trans ?_
  have hp := p.isLt
  unfold rowSums rowSumAt
  refine Finset.sum_congr rfl fun k _ => ?_
  refine x_block V c t p k _ ?_
  show win0_3.index t (0 : Fin 2) * 512 + 1 * p.val = _
  omega

/-- What point t writes back to the prediction array is block t of the row dot products. -/
theorem flushed_rowDots (c : Dev nD) (t : Fin cfg0.N) :
    (dat0 V c).flushed 4 t
      = ((cfg0.win 4).blk t).view.read (Elt Ideal) (rowDots (V c main_arg0) (V c main_v1) (V c main_v2)) := by
  show (cfg0.win 4).cut (grid0.coords t) ((dat0 V c).after 4 t) = _
  rw [after0_4]
  unfold out0_4
  rw [View.canon_unit_zero zero_offsets]
  simp only [View.ld_unit_zero (S := S512x3072) zero_offsets, View.ld_unit_zero (S := S1x3072) zero_offsets,
    View.ld_unit_zero (S := S1x1) zero_offsets]
  obtain ⟨-, -, -, -, -, -, e6, -, e8, e9⟩ := block_indices t
  funext j
  obtain ⟨p, z, rfl⟩ : ∃ (p : Fin 512) (z : Fin 1), j = ix2 p z := ⟨j 0, j 1, eq_ix2 j⟩
  show k0_pay2 (iblk0 V c 0 t) (iblk0 V c 1 t) (iblk0 V c 2 t) (ix2 p z)
    = rowDots (V c main_arg0) (V c main_v1) (V c main_v2) (((cfg0.win 4).blk t).view.emb (ix2 p z))
  refine (rowDot_apply _ _ _ p z).trans ?_
  have hp := p.isLt
  unfold rowDots rowDotAt
  refine congrArg₂ (· + ·) (Finset.sum_congr rfl fun k _ => ?_) (b_block V c t z)
  refine congrArg₂ (· * ·) (x_block V c t p k _ ?_) (w_block V c t k)
  show win0_4.index t (0 : Fin 2) * 512 + 1 * p.val = _
  omega

/-- Membership in a block of the row-sum array, coordinate by coordinate. -/
theorem mem_block3 (t : Fin cfg0.N) (i : S8192x1.Idx) :
    i ∈ ((cfg0.win 3).blk t).view.set ↔ ∀ a : Fin 2, win0_3.index t a * S512x1.size a ≤ (i a).val
      ∧ (i a).val < win0_3.index t a * S512x1.size a + S512x1.size a := by
  show i ∈ ((View.whole main_v3_0).slice (win0_3.rect t)).set ↔ _
  rw [View.set_slice_whole, Rect.mem_set_unit]
  exact Iff.rfl

/-- Membership in a block of the prediction array, coordinate by coordinate. -/
theorem mem_block4 (t : Fin cfg0.N) (i : S8192x1.Idx) :
    i ∈ ((cfg0.win 4).blk t).view.set ↔ ∀ a : Fin 2, win0_4.index t a * S512x1.size a ≤ (i a).val
      ∧ (i a).val < win0_4.index t a * S512x1.size a + S512x1.size a := by
  show i ∈ ((View.whole main_v3_1).slice (win0_4.rect t)).set ↔ _
  rw [View.set_slice_whole, Rect.mem_set_unit]
  exact Iff.rfl

/-- Row r lies in the block of the point whose block index is r / 512. -/
theorem cover3 (i : S8192x1.Idx) :
    ∃ t : Fin cfg0.N, (cfg0.win 3).flush t = true ∧ i ∈ ((cfg0.win 3).blk t).view.set := by
  have hi0 : (i 0).val < 8192 := (i 0).isLt
  have hi1 : (i 1).val < 1 := (i 1).isLt
  obtain ⟨t, ht, -⟩ := block_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_block3]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 1 ≤ (i 1).val ∧ (i 1).val < win0_3.index t (1 : Fin 2) * 1 + 1
    omega

theorem cover4 (i : S8192x1.Idx) :
    ∃ t : Fin cfg0.N, (cfg0.win 4).flush t = true ∧ i ∈ ((cfg0.win 4).blk t).view.set := by
  have hi0 : (i 0).val < 8192 := (i 0).isLt
  have hi1 : (i 1).val < 1 := (i 1).isLt
  obtain ⟨t, -, ht⟩ := block_onto ⟨(i 0).val / 512, by omega⟩
  have q0 : win0_4.index t (0 : Fin 2) = (i 0).val / 512 := congrFun ht 0
  have q1 : win0_4.index t (1 : Fin 2) = 0 := congrFun ht 1
  refine ⟨t, flush0_4 t, ?_⟩
  rw [mem_block4]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 1 ≤ (i 1).val ∧ (i 1).val < win0_4.index t (1 : Fin 2) * 1 + 1
    omega

/-- After the call the row-sum array holds the sum of every row of x as found at entry. -/
theorem rowSums_final (c : Dev nD) : (dat0 V c).arrAt 3 cfg0.N = rowSums (V c main_arg0) :=
  (dat0 V c).arrAt_eq_of_cover 3 (rowSums (V c main_arg0)) (fun t _ => flushed_rowSums V c t) cover3

/-- After the call the prediction array holds every row's dot product with the weight row, plus the bias. -/
theorem rowDots_final (c : Dev nD) :
    (dat0 V c).arrAt 4 cfg0.N = rowDots (V c main_arg0) (V c main_v1) (V c main_v2) :=
  (dat0 V c).arrAt_eq_of_cover 4 (rowDots (V c main_arg0) (V c main_v1) (V c main_v2))
    (fun t _ => flushed_rowDots V c t) cover4

end Cert.KernelIdeal.RowStats

end
-- ==== Proof.RegionOuter.lean ====
/-
  The second pipelined call, as one whole array, for any contents found at its entry.

  The call walks an 8 × 4 grid; the point with block indices (a, b) stages entries 1024·a … 1024·a + 1023 of a
  column u and entries 2048·b … 2048·b + 2047 of a row v, and writes back the 1024 × 2048 block of products
  v[q] · u[p]. The 32 blocks tile the 8192 × 8192 array, and entry (r, s) is written by the one point
  (r / 1024, s / 2048) from u[r] and v[s]: the array ends as the outer product, entry (r, s) = v[s] · u[r].
-/
import proofs.«139586_j43250320670736_2_alg».proof.Proof.Gen.KernelIdeal.Frame
import proofs.«139586_j43250320670736_2_alg».proof.Proof.Bodies

set_option maxRecDepth 16384

noncomputable section

namespace Cert.KernelIdeal.Outer

open Cert.KernelIdeal Cert.KernelIdeal.Gen Cert.KernelIdeal.Bodies
open Idealize.ShloMosaic Idealize.ShloMosaic.TcCoe Idealize.ShloMosaic.ValueIdx Idealize.SL.Sem
open Idealize.ShloMosaic.Pipeline (Dat)

/-- The product of the row's entry s and the column's entry r. -/
def outerAt (u : S8192x1.Idx → EReal) (v : S1x8192.Idx → EReal) (r s : Fin 8192) : EReal :=
  v (ix2 (0 : Fin 1) s) * u (ix2 r (0 : Fin 1))

/-- The outer product as an array. -/
def outer (u : S8192x1.Idx → EReal) (v : S1x8192.Idx → EReal) : S8192x8192.Idx → EReal :=
  fun i => outerAt u v ⟨(i 0).val, idx2_lt0 i⟩ ⟨(i 1).val, idx2_lt1 i⟩

variable (V : (c : Dev nD) → (b : Ref sig .tc) → Buf (Elt Ideal) ((c : Thread nD τ).loc b))

theorem zero_offsets : (![0, 0] : Fin 2 → Nat) = fun _ => 0 := funext fun a => by fin_cases a <;> rfl

/-- The block indices over the grid: the column moves with the output's rows, the row with its columns. -/
theorem block_indices : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = win1_2.index t (1 : Fin 2)
    ∧ win1_2.index t (0 : Fin 2) ≤ 7 ∧ win1_2.index t (1 : Fin 2) ≤ 3 :=
  (by decide +kernel : ∀ t : Fin grid1.N, _)

/-- Every one of the 8 × 4 blocks is some point's. -/
theorem block_onto : ∀ (q0 : Fin 8) (q1 : Fin 4), ∃ t : Fin cfg1.N, win1_2.index t = ![q0.val, q1.val] :=
  (by decide +kernel : ∀ (q0 : Fin 8) (q1 : Fin 4), ∃ t : Fin grid1.N, win1_2.index t = ![q0.val, q1.val])

/-- Entry p of the staged piece of the column is the column at (block row index · 1024 + p). -/
theorem u_block (c : Dev nD) (t : Fin cfg1.N) (p : Fin 1024) (r : Fin 8192)
    (hr : r.val = win1_2.index t (0 : Fin 2) * 1024 + p.val) :
    iblk1 V c 0 t (ix2 p (0 : Fin 1)) = V c main_v6 (ix2 r (0 : Fin 1)) := by
  obtain ⟨e0, e1, -⟩ := block_indices t
  show V c main_v6 (((cfg1.win 0).blk t).view.emb (ix2 p (0 : Fin 1))) = V c main_v6 (ix2 r (0 : Fin 1))
  refine congrArg _ (funext fun a => Fin.ext ?_)
  match a with
  | ⟨0, _⟩ => show win1_0.index t (0 : Fin 2) * 1024 + 1 * p.val = r.val; omega
  | ⟨1, _⟩ => show win1_0.index t (1 : Fin 2) * 1 + 1 * 0 = 0; omega

/-- Entry q of the staged piece of the row is the row at (block column index · 2048 + q). -/
theorem v_block (c : Dev nD) (t : Fin cfg1.N) (q : Fin 2048) (s : Fin 8192)
    (hs : s.val = win1_2.index t (1 : Fin 2) * 2048 + q.val) :
    iblk1 V c 1 t (ix2 (0 : Fin 1) q) = V c main_v7 (ix2 (0 : Fin 1) s) := by
  obtain ⟨-, -, e2, e3, -⟩ := block_indices t
  show V c main_v7 (((cfg1.win 1).blk t).view.emb (ix2 (0 : Fin 1) q)) = V c main_v7 (ix2 (0 : Fin 1) s)
  refine congrArg _ (funext fun a => Fin.ext ?_)
  match a with
  | ⟨0, _⟩ => show win1_1.index t (0 : Fin 2) * 1 + 1 * 0 = 0; omega
  | ⟨1, _⟩ => show win1_1.index t (1 : Fin 2) * 2048 + 1 * q.val = s.val; omega

/-- What point t writes back is block t of the outer product of the column and the row found at entry. -/
theorem flushed_outer (c : Dev nD) (t : Fin cfg1.N) :
    (dat1 V c).flushed 2 t = ((cfg1.win 2).blk t).view.read (Elt Ideal) (outer (V c main_v6) (V c main_v7)) := by
  show (cfg1.win 2).cut (grid1.coords t) ((dat1 V c).after 2 t) = _
  rw [after1_2]
  unfold out1_2
  rw [View.canon_unit_zero zero_offsets]
  simp only [View.ld_unit_zero (S := S1024x1) zero_offsets, View.ld_unit_zero (S := S1x2048) zero_offsets]
  obtain ⟨-, -, -, -, e4, e5⟩ := block_indices t
  funext j
  obtain ⟨p, q, rfl⟩ : ∃ (p : Fin 1024) (q : Fin 2048), j = ix2 p q := ⟨j 0, j 1, eq_ix2 j⟩
  show k1_pay1 (iblk1 V c 0 t) (iblk1 V c 1 t) (ix2 p q)
    = outer (V c main_v6) (V c main_v7) (((cfg1.win 2).blk t).view.emb (ix2 p q))
  refine (outer_apply _ _ p q).trans ?_
  have hp := p.isLt
  have hq := q.isLt
  unfold outer outerAt
  refine congrArg₂ (· * ·) (v_block V c t q _ ?_) (u_block V c t p _ ?_)
  · show win1_2.index t (1 : Fin 2) * 2048 + 1 * q.val = _
    omega
  · show win1_2.index t (0 : Fin 2) * 1024 + 1 * p.val = _
    omega

/-- Membership in a block of the output array, coordinate by coordinate. -/
theorem mem_block (t : Fin cfg1.N) (i : S8192x8192.Idx) :
    i ∈ ((cfg1.win 2).blk t).view.set ↔ ∀ a : Fin 2, win1_2.index t a * S1024x2048.size a ≤ (i a).val
      ∧ (i a).val < win1_2.index t a * S1024x2048.size a + S1024x2048.size a := by
  show i ∈ ((View.whole main_v8).slice (win1_2.rect t)).set ↔ _
  rw [View.set_slice_whole, Rect.mem_set_unit]
  exact Iff.rfl

/-- Entry (r, s) lies in the block of the point with block indices (r / 1024, s / 2048). -/
theorem cover (i : S8192x8192.Idx) :
    ∃ t : Fin cfg1.N, (cfg1.win 2).flush t = true ∧ i ∈ ((cfg1.win 2).blk t).view.set := by
  have hi0 : (i 0).val < 8192 := (i 0).isLt
  have hi1 : (i 1).val < 8192 := (i 1).isLt
  obtain ⟨t, ht⟩ := block_onto ⟨(i 0).val / 1024, by omega⟩ ⟨(i 1).val / 2048, by omega⟩
  have q0 : win1_2.index t (0 : Fin 2) = (i 0).val / 1024 := congrFun ht 0
  have q1 : win1_2.index t (1 : Fin 2) = (i 1).val / 2048 := congrFun ht 1
  refine ⟨t, flush1_2 t, ?_⟩
  rw [mem_block]
  intro a
  match a with
  | ⟨0, _⟩ =>
    show win1_2.index t (0 : Fin 2) * 1024 ≤ (i 0).val ∧ (i 0).val < win1_2.index t (0 : Fin 2) * 1024 + 1024
    omega
  | ⟨1, _⟩ =>
    show win1_2.index t (1 : Fin 2) * 2048 ≤ (i 1).val ∧ (i 1).val < win1_2.index t (1 : Fin 2) * 2048 + 2048
    omega

/-- After the call the output array holds the outer product of the column and the row found at entry. -/
theorem outer_final (c : Dev nD) : (dat1 V c).arrAt 2 cfg1.N = outer (V c main_v6) (V c main_v7) :=
  (dat1 V c).arrAt_eq_of_cover 2 (outer (V c main_v6) (V c main_v7)) (fun t _ => flushed_outer V c t) cover

end Cert.KernelIdeal.Outer

end
-- ==== Proof.Results.lean ====
/-
  The three results of the idealized kernel program as functions of its three arguments.

  Reading the fold of buffer contents backwards from the end:
  * the prediction column is written by the first call and by nothing after it; the first call finds x as
    launched, the weight row as the first 3072 weights re-laid as a row, and the bias as the last weight;
  * the pairwise matrix is written by the second call and by nothing after it; the second call finds the column
    exp(-s) and the row exp(s) re-laid from a column, where s is the column of row sums the first call left;
  * the loss is the last host stretch applied to the labels as launched, the prediction column and the weights
    as launched. That stretch is kept as ONE function of those three arrays and is never opened: the reference
    ends with the same stretch.
-/
import proofs.«139586_j43250320670736_2_alg».proof.Proof.Gen.KernelIdeal.Frame
import proofs.«139586_j43250320670736_2_alg».proof.Proof.RegionRows
import proofs.«139586_j43250320670736_2_alg».proof.Proof.RegionOuter
import Idealize.ShloMosaic.Lib.StableHlo.Run

set_option maxRecDepth 16384

noncomputable section

namespace Cert.KernelIdeal.Results

open Cert.KernelIdeal Cert.KernelIdeal.Gen Cert.KernelIdeal.RowStats Cert.KernelIdeal.Outer
open Idealize.ShloMosaic Idealize.ShloMosaic.TcCoe Idealize.ShloMosaic.ValueIdx Idealize.SL.Sem
open Idealize.ShloMosaic.StableHlo

/-- The first 3072 weights, re-laid as a row. -/
def weightRow (w : (⟨S3073x1, .f32⟩ : BufTy).Contents (Elt Ideal)) : (⟨S1x3072, .f32⟩ : BufTy).Contents (Elt Ideal) :=
  shapeCast S1x3072 (extractStridedSlice S3072x1 ![0, 0] w slices_S3073x1_S3072x1_0_0) shapeCasts_S3072x1_S1x3072

/-- The last weight, as a 1 × 1 array. -/
def biasCell (w : (⟨S3073x1, .f32⟩ : BufTy).Contents (Elt Ideal)) : (⟨S1x1, .f32⟩ : BufTy).Contents (Elt Ideal) :=
  extractStridedSlice S1x1 ![3072, 0] w slices_S3073x1_S1x1_3072_0

/-- The column exp(-s). -/
def expNeg (s : FVec Ideal S8192x1 .f32) : FVec Ideal S8192x1 .f32 :=
  Host.exp (F := Ideal) (Host.negf (F := Ideal) s)

/-- The row exp(s), re-laid from a column. -/
def expRow (s : FVec Ideal S8192x1 .f32) : FVec Ideal S1x8192 .f32 :=
  shapeCast S1x8192 (Host.exp (F := Ideal) s) shapeCasts_S8192x1_S1x8192

/-- The loss as one function of the labels, a prediction column and the weights: half the root of the summed
    squared differences, over 8192, plus the summed absolute weights. -/
def lossOf (y : (⟨S8192x1, .i32⟩ : BufTy).Contents (Elt Ideal)) (pred : (⟨S8192x1, .f32⟩ : BufTy).Contents (Elt Ideal))
    (w : (⟨S3073x1, .f32⟩ : BufTy).Contents (Elt Ideal)) : (⟨S_, .f32⟩ : BufTy).Contents (Elt Ideal) :=
  addf (Host.divf (F := Ideal) (mulf (constant (F := Ideal) S_ .f32 0x3F000000#32)
      (Host.sqrt (F := Ideal) (Host.reduceAdd (F := Ideal) (mulf (subf (sitofp .f32 y) pred) (subf (sitofp .f32 y) pred))
        (constant (F := Ideal) S_ .f32 0x00000000#32) reducesTo_S8192x1_S_d0_1 h_S_)))
      (constant (F := Ideal) S_ .f32 0x46000000#32))
    (Host.reduceAdd (F := Ideal) (Host.absf (F := Ideal) w) (constant (F := Ideal) S_ .f32 0x00000000#32) reducesTo_S3073x1_S_d0_1 h_S_)

/-! ## Each host stretch, over any contents it starts from -/

section Stretches
variable (Wv : Valuation τ sig (Elt Ideal))

theorem stretch0_x : after hostOps0 Wv (Proc.devRef .tc main_arg0) = Wv (Proc.devRef .tc main_arg0) := by
  after_results

theorem stretch0_w : after hostOps0 Wv (Proc.devRef .tc main_v1) = weightRow (Wv (Proc.devRef .tc main_arg2)) := by
  after_results
  rfl

theorem stretch0_b : after hostOps0 Wv (Proc.devRef .tc main_v2) = biasCell (Wv (Proc.devRef .tc main_arg2)) := by
  after_results
  rfl

theorem stretch1_u : after hostOps1 Wv (Proc.devRef .tc main_v6) = expNeg (Wv (Proc.devRef .tc main_v3_0)) := by
  after_results
  rfl

theorem stretch1_v : after hostOps1 Wv (Proc.devRef .tc main_v7) = expRow (Wv (Proc.devRef .tc main_v3_0)) := by
  after_results
  rfl

theorem stretch1_pred : after hostOps1 Wv (Proc.devRef .tc main_v3_1) = Wv (Proc.devRef .tc main_v3_1) := by
  after_results

theorem stretch2_pred : after hostOps2 Wv (Proc.devRef .tc main_v3_1) = Wv (Proc.devRef .tc main_v3_1) := by
  after_results

theorem stretch2_K : after hostOps2 Wv (Proc.devRef .tc main_v8) = Wv (Proc.devRef .tc main_v8) := by
  after_results

theorem stretch2_loss : after hostOps2 Wv (Proc.devRef .tc main_v18)
    = lossOf (Wv (Proc.devRef .tc main_arg1)) (Wv (Proc.devRef .tc main_v3_1)) (Wv (Proc.devRef .tc main_arg2)) := by
  after_results
  rfl

end Stretches

/-! ## The fold read at the results -/

variable (m : (ℓ : Loc nD τ sig) → Buf (Elt Ideal) ℓ) (ρ : Dev nD → PrngReg)

/-- The column of row sums the first call leaves. -/
theorem sums_value (c : Dev nD) :
    W2 m ρ c (Proc.devRef .tc main_v3_0) = rowSums (m ((c : Thread nD τ).loc main_arg0)) := by
  refine (W2_arr m ρ c 3).trans ((rowSums_final (V1 m ρ) c).trans ?_)
  exact congrArg rowSums (stretch0_x (W0 m ρ c))

/-- The prediction column the first call leaves. -/
theorem pred_after_call (c : Dev nD) :
    W2 m ρ c (Proc.devRef .tc main_v3_1)
      = rowDots (m ((c : Thread nD τ).loc main_arg0)) (weightRow (m ((c : Thread nD τ).loc main_arg2)))
          (biasCell (m ((c : Thread nD τ).loc main_arg2))) := by
  refine (W2_arr m ρ c 4).trans ((rowDots_final (V1 m ρ) c).trans ?_)
  show rowDots (after hostOps0 (W0 m ρ c) (Proc.devRef .tc main_arg0)) (after hostOps0 (W0 m ρ c) (Proc.devRef .tc main_v1))
      (after hostOps0 (W0 m ρ c) (Proc.devRef .tc main_v2)) = _
  rw [stretch0_x, stretch0_w, stretch0_b]

/-- No buffer the second call writes is the prediction column, and the stretch before it leaves it alone. -/
theorem pred_before_tail (c : Dev nD) :
    W4 m ρ c (Proc.devRef .tc main_v3_1) = W2 m ρ c (Proc.devRef .tc main_v3_1) :=
  (W4_of_ne m ρ c main_v3_1 (by decide)).trans (stretch1_pred (W2 m ρ c))

/-- RESULT 1: the prediction column at the end of the program. -/
theorem pred_value (c : Dev nD) :
    W5 m ρ c (Proc.devRef .tc main_v3_1)
      = rowDots (m ((c : Thread nD τ).loc main_arg0)) (weightRow (m ((c : Thread nD τ).loc main_arg2)))
          (biasCell (m ((c : Thread nD τ).loc main_arg2))) :=
  (stretch2_pred (W4 m ρ c)).trans ((pred_before_tail m ρ c).trans (pred_after_call m ρ c))

/-- The weights and the labels are as launched when the last stretch starts. -/
theorem labels_before_tail (c : Dev nD) :
    W4 m ρ c (Proc.devRef .tc main_arg1) = m ((c : Thread nD τ).loc main_arg1) := by
  refine (W4_of_ne m ρ c main_arg1 (by decide)).trans ?_
  show after hostOps1 (W2 m ρ c) (Proc.devRef .tc main_arg1) = _
  have e1 : after hostOps1 (W2 m ρ c) (Proc.devRef .tc main_arg1) = W2 m ρ c (Proc.devRef .tc main_arg1) := by
    after_results
  refine e1.trans ((W2_of_ne m ρ c main_arg1 (by decide)).trans ?_)
  show after hostOps0 (W0 m ρ c) (Proc.devRef .tc main_arg1) = _
  have e0 : after hostOps0 (W0 m ρ c) (Proc.devRef .tc main_arg1) = W0 m ρ c (Proc.devRef .tc main_arg1) := by
    after_results
  exact e0

theorem weights_before_tail (c : Dev nD) :
    W4 m ρ c (Proc.devRef .tc main_arg2) = m ((c : Thread nD τ).loc main_arg2) := by
  refine (W4_of_ne m ρ c main_arg2 (by decide)).trans ?_
  show after hostOps1 (W2 m ρ c) (Proc.devRef .tc main_arg2) = _
  have e1 : after hostOps1 (W2 m ρ c) (Proc.devRef .tc main_arg2) = W2 m ρ c (Proc.devRef .tc main_arg2) := by
    after_results
  refine e1.trans ((W2_of_ne m ρ c main_arg2 (by decide)).trans ?_)
  show after hostOps0 (W0 m ρ c) (Proc.devRef .tc main_arg2) = _
  have e0 : after hostOps0 (W0 m ρ c) (Proc.devRef .tc main_arg2) = W0 m ρ c (Proc.devRef .tc main_arg2) := by
    after_results
  exact e0

/-- RESULT 2: the loss at the end of the program is the shared last stretch of the labels, the prediction column
    and the weights. -/
theorem loss_value (c : Dev nD) :
    W5 m ρ c (Proc.devRef .tc main_v18)
      = lossOf (m ((c : Thread nD τ).loc main_arg1))
          (rowDots (m ((c : Thread nD τ).loc main_arg0)) (weightRow (m ((c : Thread nD τ).loc main_arg2)))
            (biasCell (m ((c : Thread nD τ).loc main_arg2))))
          (m ((c : Thread nD τ).loc main_arg2)) := by
  refine (stretch2_loss (W4 m ρ c)).trans ?_
  rw [labels_before_tail, weights_before_tail, pred_before_tail, pred_after_call]

/-- RESULT 3: the pairwise matrix at the end of the program is the outer product of exp(-s) and exp(s), s the
    row sums of x. -/
theorem K_value (c : Dev nD) :
    W5 m ρ c (Proc.devRef .tc main_v8)
      = outer (expNeg (rowSums (m ((c : Thread nD τ).loc main_arg0)))) (expRow (rowSums (m ((c : Thread nD τ).loc main_arg0)))) := by
  refine (stretch2_K (W4 m ρ c)).trans ((W4_arr m ρ c 2).trans ((outer_final (V3 m ρ) c).trans ?_))
  show outer (after hostOps1 (W2 m ρ c) (Proc.devRef .tc main_v6)) (after hostOps1 (W2 m ρ c) (Proc.devRef .tc main_v7)) = _
  rw [stretch1_u, stretch1_v, sums_value]

end Cert.KernelIdeal.Results

end
-- ==== Proof.Laws.lean ====
/-
  The two identities of extended reals on which the equivalence rests, and one literal.

  * The exponential of a difference: e^a · e^(-b) = e^(a - b). On the extended reals the exponential sends
    -∞ to 0 and +∞ to +∞, a product with a factor 0 is 0, and (+∞) + (-∞) = -∞; checking the nine
    combinations of {-∞, real, +∞} shows the identity holds everywhere, so no finiteness is needed: the real
    case is the addition law of the real exponential, and in every other case both sides are 0 or both are +∞.
  * A sum of n+1 products whose last left factor is 1 is the sum of the first n products plus the last right
    factor: a dot product with a row extended by a trailing 1 is the dot product plus the trailing weight.
  * The 32-bit word 0x3F800000 denotes the number 1.
-/
import Idealize.ShloMosaic.PureOps.Ideal
import Idealize.ShloMosaic.PureOps.Ideal.Laws

noncomputable section

namespace Cert.Ridge

open Idealize.ShloMosaic

/-- The word 0x3F800000 (sign 0, exponent 127, fraction 0) is the number one. -/
theorem one_word : Ideal.ofBits .f32 0x3F800000#32 = 1 := by
  simp [Ideal.ofBits, Ideal.ieee, -EReal.coe_mul]; norm_num

/-- e^a · e^(-b) = e^(a - b) for all extended reals a and b. -/
theorem exp_mul_exp_neg (a b : EReal) : Ideal.exp a * Ideal.exp (-b) = Ideal.exp (a - b) := by
  induction a using EReal.rec with
  | bot => rw [EReal.bot_sub, Ideal.exp_bot, zero_mul]
  | top =>
    induction b using EReal.rec with
    | bot => rw [EReal.neg_bot, EReal.top_sub_bot, Ideal.exp_top, EReal.top_mul_top]
    | top => rw [EReal.neg_top, EReal.sub_top, Ideal.exp_bot, mul_zero]
    | coe s =>
      rw [EReal.top_sub_coe, Ideal.exp_top, ← EReal.coe_neg, Ideal.exp_coe]
      exact EReal.top_mul_coe_of_pos (Real.exp_pos _)
  | coe r =>
    induction b using EReal.rec with
    | bot =>
      rw [EReal.neg_bot, EReal.coe_sub_bot, Ideal.exp_top, Ideal.exp_coe]
      exact EReal.coe_mul_top_of_pos (Real.exp_pos _)
    | top => rw [EReal.neg_top, EReal.sub_top, Ideal.exp_bot, mul_zero]
    | coe s =>
      rw [← EReal.coe_neg, ← EReal.coe_sub, Ideal.exp_coe, Ideal.exp_coe, Ideal.exp_coe, ← EReal.coe_mul,
        ← Real.exp_add, sub_eq_add_neg]

/-- A dot product over n+1 terms whose last left factor is 1: the first n terms, plus the last right factor. -/
theorem sum_mul_last_one {n : ℕ} (f w : Fin (n + 1) → EReal) (h : f (Fin.last n) = 1) :
    ∑ k, f k * w k = (∑ d : Fin n, f d.castSucc * w d.castSucc) + w (Fin.last n) := by
  rw [Fin.sum_univ_castSucc, h, one_mul]

end Cert.Ridge

end
-- ==== Proof.Bridge.lean ====
/-
  The reference's three results are the kernel program's three results, as functions of the same arguments.

  * The prediction. The reference joins a column of ones to x and takes the dot product of each extended row
    (3073 entries) with the weight column. The last left factor is 1, so the dot product is the dot product of
    the first 3072 entries plus the last weight: the kernel's row dot product with the first 3072 weights laid
    as a row, plus the last weight as the bias.
  * The pairwise matrix. The reference exponentiates s[j] - s[i], s the row sums of x (each started from the
    zero word, which adds nothing); the kernel multiplies exp(s[j]) by exp(-s[i]). The two agree for all
    extended reals (the exponential of a difference).
  * The loss. Both programs end with the same stretch of host operations applied to the labels, the prediction
    column and the weights; with the predictions equal there is nothing more to show.
-/
import proofs.«139586_j43250320670736_2_alg».proof.Proof.Gen.ReferenceIdeal.Read
import proofs.«139586_j43250320670736_2_alg».proof.Proof.Results
import proofs.«139586_j43250320670736_2_alg».proof.Proof.Laws
import Idealize.ShloMosaic.Lib.ValueIdx
import Idealize.ShloMosaic.Lib.Pipeline.Value
import Idealize.ShloMosaic.PureOps.Ideal.Laws

set_option maxRecDepth 16384

noncomputable section

namespace Cert.Bridge

open Idealize.ShloMosaic Idealize.ShloMosaic.ValueIdx
open Cert.ReferenceIdeal Cert.ReferenceIdeal.Read
open Cert.KernelIdeal.RowStats Cert.KernelIdeal.Outer Cert.KernelIdeal.Results

/-! ## Re-laid weights read at an entry -/

/-- Entry k of the weight row is weight k. -/
theorem weightRow_apply (w : (⟨S3073x1, .f32⟩ : BufTy).Contents (Elt Ideal)) (k : Fin 3072) :
    weightRow w (ix2 (0 : Fin 1) k) = w (ix2 k.castSucc (0 : Fin 1)) := by
  unfold weightRow
  refine (shapeCast_apply _ _ (ix2 (0 : Fin 1) k) (ix2 k (0 : Fin 1)) ?_).trans ?_
  · rw [Shape.rowMajor_val_two, Shape.rowMajor_val_two]
    show k.val * 1 + 0 = 0 * 3072 + k.val
    omega
  · exact extractStridedSlice_apply _ w _ (ix2 k (0 : Fin 1)) (ix2 k.castSucc (0 : Fin 1)) fun a => by
      match a with
      | ⟨0, _⟩ => exact (Nat.zero_add _).symm
      | ⟨1, _⟩ => rfl

/-- The bias is the last weight. -/
theorem biasCell_apply (w : (⟨S3073x1, .f32⟩ : BufTy).Contents (Elt Ideal)) :
    biasCell w (ix2 (0 : Fin 1) (0 : Fin 1)) = w (ix2 (Fin.last 3072) (0 : Fin 1)) := by
  unfold biasCell
  exact extractStridedSlice_apply _ w _ (ix2 (0 : Fin 1) (0 : Fin 1)) (ix2 (Fin.last 3072) (0 : Fin 1)) fun a => by
    match a with
    | ⟨0, _⟩ => rfl
    | ⟨1, _⟩ => rfl

/-! ## The prediction -/

/-- The joined row at a column below 3072 is x there. -/
theorem joined_left (x : (⟨S8192x3072, .f32⟩ : BufTy).Contents (Elt Ideal)) (i : S8192x1.Idx) (d : Fin 3072) :
    val_main_v8 (F := Ideal) x (lidx_main_v9 i d.castSucc) = x (ix2 (⟨(i 0).val, idx2_lt0 i⟩ : Fin 8192) d) := by
  unfold val_main_v8
  exact concatenate_pair_apply_left (t := S8192x3073) (s₁ := S8192x3072) (s₂ := S8192x1) (1 : Fin 2) x _ _
    (lidx_main_v9 i d.castSucc) rfl (ix2 (⟨(i 0).val, idx2_lt0 i⟩ : Fin 8192) d) fun b => by
    match b with
    | ⟨0, _⟩ => rfl
    | ⟨1, _⟩ => rfl

/-- The joined row at column 3072 is 1. -/
theorem joined_last (x : (⟨S8192x3072, .f32⟩ : BufTy).Contents (Elt Ideal)) (i : S8192x1.Idx) :
    val_main_v8 (F := Ideal) x (lidx_main_v9 i (Fin.last 3072)) = 1 := by
  unfold val_main_v8
  refine (concatenate_pair_apply_right (t := S8192x3073) (s₁ := S8192x3072) (s₂ := S8192x1) (1 : Fin 2) x _ _
    (lidx_main_v9 i (Fin.last 3072)) rfl rfl (ix2 (⟨(i 0).val, idx2_lt0 i⟩ : Fin 8192) (0 : Fin 1))
    (fun b hb => by
      match b with
      | ⟨0, _⟩ => rfl
      | ⟨1, _⟩ => exact absurd rfl hb) rfl).trans ?_
  rw [val_main_v7_apply, val_main_cst_0_apply]
  exact Cert.Ridge.one_word

/-- The weight the dot product pairs with column k is weight k. -/
theorem weight_index (w : (⟨S3073x1, .f32⟩ : BufTy).Contents (Elt Ideal)) (i : S8192x1.Idx) (k : Fin 3073) :
    w (ridx_main_v9 i k) = w (ix2 k (0 : Fin 1)) := by
  have h1 : (i 1).val < 1 := (i 1).isLt
  refine congrArg w (funext fun a => Fin.ext ?_)
  match a with
  | ⟨0, _⟩ => rfl
  | ⟨1, _⟩ => show (i 1).val = 0; omega

/-- RESULT 1 agrees: the reference's dot product with the joined ones is the kernel's row dot product plus bias. -/
theorem pred_eq (x : (⟨S8192x3072, .f32⟩ : BufTy).Contents (Elt Ideal)) (w : (⟨S3073x1, .f32⟩ : BufTy).Contents (Elt Ideal)) :
    val_main_v9 (F := Ideal) x w = rowDots x (weightRow w) (biasCell w) := by
  funext i
  rw [val_main_v9_apply]
  refine (Cert.Ridge.sum_mul_last_one (n := 3072) (fun k => val_main_v8 (F := Ideal) x (lidx_main_v9 i k))
    (fun k => w (ridx_main_v9 i k)) (joined_last x i)).trans ?_
  unfold rowDots rowDotAt
  refine congrArg₂ (· + ·) (Finset.sum_congr rfl fun d _ => congrArg₂ (· * ·) (joined_left x i d) ?_) ?_
  · exact (weight_index w i d.castSucc).trans (weightRow_apply w d).symm
  · exact (weight_index w i (Fin.last 3072)).trans (biasCell_apply w).symm

/-! ## The pairwise matrix -/

/-- The reference's row sum at row r: the zero word plus the sum of the row, which is the sum of the row. -/
theorem ref_rowSum (x : (⟨S8192x3072, .f32⟩ : BufTy).Contents (Elt Ideal)) (j : S8192.Idx) :
    val_main_v0 (F := Ideal) x j = rowSumAt x (⟨(j 0).val, (j 0).isLt⟩ : Fin 8192) := by
  rw [val_main_v0_apply, val_main_cst_apply]
  show Ideal.ofBits .f32 0x00000000#32 + _ = _
  rw [Ideal.ofBits_zero_f32, zero_add]
  unfold rowSumAt
  exact Finset.sum_congr rfl fun k _ => congrArg x (funext fun a => Fin.ext (by
    match a with
    | ⟨0, _⟩ => rfl
    | ⟨1, _⟩ => rfl))

/-- Entry s of the row exp(S) re-laid from a column is the exponential of S at row s. -/
theorem expRow_apply (S : FVec Ideal Cert.KernelIdeal.S8192x1 .f32) (s : Fin 8192) :
    expRow S (ix2 (0 : Fin 1) s) = Ideal.exp (S (ix2 s (0 : Fin 1))) := by
  unfold expRow
  refine (shapeCast_apply _ _ (ix2 (0 : Fin 1) s) (ix2 s (0 : Fin 1)) ?_).trans rfl
  rw [Shape.rowMajor_val_two, Shape.rowMajor_val_two]
  show s.val * 1 + 0 = 0 * 8192 + s.val
  omega

/-- Entry r of the column exp(-S) is the exponential of minus S at row r. -/
theorem expNeg_apply (S : FVec Ideal Cert.KernelIdeal.S8192x1 .f32) (r : Fin 8192) :
    expNeg S (ix2 r (0 : Fin 1)) = Ideal.exp (-(S (ix2 r (0 : Fin 1)))) := rfl

/-- RESULT 3 agrees: exp(s[j] - s[i]) = exp(s[j]) · exp(-s[i]). -/
theorem K_eq (x : (⟨S8192x3072, .f32⟩ : BufTy).Contents (Elt Ideal)) :
    val_main_v6 (F := Ideal) x = outer (expNeg (rowSums x)) (expRow (rowSums x)) := by
  funext i
  rw [val_main_v6_apply, val_main_v5_apply, val_main_v3_apply, val_main_v1_apply, val_main_v4_apply, val_main_v2_apply,
    ref_rowSum, ref_rowSum]
  show Ideal.exp (rowSumAt x ⟨(i 1).val, _⟩ - rowSumAt x ⟨(i 0).val, _⟩) = _
  unfold outer outerAt
  rw [expRow_apply, expNeg_apply]
  exact (Cert.Ridge.exp_mul_exp_neg _ _).symm

/-! ## The loss -/

/-- RESULT 2 agrees: the reference's last operations are the shared stretch applied to its own prediction. -/
theorem loss_eq (x : (⟨S8192x3072, .f32⟩ : BufTy).Contents (Elt Ideal)) (y : (⟨S8192x1, .i32⟩ : BufTy).Contents (Elt Ideal))
    (w : (⟨S3073x1, .f32⟩ : BufTy).Contents (Elt Ideal)) :
    val_main_v19 (F := Ideal) x y w = lossOf y (val_main_v9 (F := Ideal) x w) w := rfl

end Cert.Bridge

end
-- ==== Proof.lean ====
/-
  A ridge-regression loss with a pairwise matrix: the tiled program against its plain reference, over the
  extended reals.

  Inputs: x (8192 × 3072 reals), labels y (8192 integers), weights (3073 reals: 3072 weights and a bias).
  Results, and why the two programs agree on each:

  * pred[i] = Σ_d x[i, d] · weight[d] + weight[3072]. The tiled program computes it 512 rows at a time as a
    lane sum of x · w plus the bias; the reference joins a column of ones to x and takes one dot product over
    3073 entries, whose last term is 1 · weight[3072]. Splitting off the last term of a finite sum needs no
    finiteness.
  * K[i, j] = exp(s[j] - s[i]), s[i] = Σ_d x[i, d]. The tiled program computes s 512 rows at a time, takes
    exp(s) and exp(-s) once, and fills K in 1024 × 2048 tiles with exp(s[j]) · exp(-s[i]). On the extended reals
    exp(a) · exp(-b) = exp(a - b) for every a and b, the infinite ones included, so again no finiteness is used.
  * loss = 0.5 · sqrt(Σ_i (y[i] - pred[i])²) / 8192 + Σ |weight|. Both programs compute it from pred by the same
    operations with the same literal words; equal predictions give equal losses.

  The tiled program's run is read as a fold of buffer contents through its five stretches; each pipelined call's
  output is one whole-array function of what the call finds, because its blocks tile the array. The reference's
  run and its operations read at an index are the generated ones.
-/
import proofs.«139586_j43250320670736_2_alg».proof.Defs
import proofs.«139586_j43250320670736_2_alg».proof.Proof.Gen.Kernel
import proofs.«139586_j43250320670736_2_alg».proof.Proof.Gen.Kernel.Frame
import proofs.«139586_j43250320670736_2_alg».proof.Proof.Gen.KernelIdeal
import proofs.«139586_j43250320670736_2_alg».proof.Proof.Gen.KernelIdeal.Frame
import proofs.«139586_j43250320670736_2_alg».proof.Proof.Gen.ReferenceIdeal
import proofs.«139586_j43250320670736_2_alg».proof.Proof.Gen.ReferenceIdeal.Run
import proofs.«139586_j43250320670736_2_alg».proof.Proof.Gen.ReferenceIdeal.Read
import proofs.«139586_j43250320670736_2_alg».proof.Proof.Gen.Pre_finite_inputs
import proofs.«139586_j43250320670736_2_alg».proof.Proof.WholeRun
import proofs.«139586_j43250320670736_2_alg».proof.Proof.Results
import proofs.«139586_j43250320670736_2_alg».proof.Proof.Bridge
import Idealize.ShloMosaic.Adequacy
import Idealize.ShloMosaic.Init

noncomputable section

namespace Cert.Proof

open Idealize.ShloMosaic Idealize.ShloMosaic.TcCoe Idealize.SL.Sem
open Cert.KernelIdeal.RowStats Cert.KernelIdeal.Outer Cert.KernelIdeal.Results

/-- The program as printed runs to the end and leaves its arguments alone. -/
theorem frame_kernel : Cert.frame_Kernel := fun m ρ _ => Cert.Kernel.Gen.frame m ρ

/-- So does the program read over the extended reals. -/
theorem frame_kernelIdeal : Cert.frame_KernelIdeal := fun m ρ _ => Cert.KernelIdeal.Gen.frame m ρ

/-- The reference's run, its results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- Nothing was rewritten on the way to the extended reals. -/
theorem preserves : Cert.preserves_Kernel_KernelIdeal := trivial

/-- From memories agreeing on x, y and the weights, both programs end with the same prediction column, the same loss
    and the same pairwise matrix. -/
theorem algebraic : Cert.algebraic_KernelIdeal_ReferenceIdeal := by
  intro m ρ m' ρ' _ hagree
  refine ⟨fun c => rowDots (m ((c : Thread Cert.KernelIdeal.nD Cert.KernelIdeal.τ).loc Cert.KernelIdeal.main_arg0))
              (weightRow (m ((c : Thread Cert.KernelIdeal.nD Cert.KernelIdeal.τ).loc Cert.KernelIdeal.main_arg2)))
              (biasCell (m ((c : Thread Cert.KernelIdeal.nD Cert.KernelIdeal.τ).loc Cert.KernelIdeal.main_arg2))),
          fun c => lossOf (m ((c : Thread Cert.KernelIdeal.nD Cert.KernelIdeal.τ).loc Cert.KernelIdeal.main_arg1))
              (rowDots (m ((c : Thread Cert.KernelIdeal.nD Cert.KernelIdeal.τ).loc Cert.KernelIdeal.main_arg0))
                (weightRow (m ((c : Thread Cert.KernelIdeal.nD Cert.KernelIdeal.τ).loc Cert.KernelIdeal.main_arg2)))
                (biasCell (m ((c : Thread Cert.KernelIdeal.nD Cert.KernelIdeal.τ).loc Cert.KernelIdeal.main_arg2))))
              (m ((c : Thread Cert.KernelIdeal.nD Cert.KernelIdeal.τ).loc Cert.KernelIdeal.main_arg2)),
          fun c => outer (expNeg (rowSums (m ((c : Thread Cert.KernelIdeal.nD Cert.KernelIdeal.τ).loc Cert.KernelIdeal.main_arg0))))
              (expRow (rowSums (m ((c : Thread Cert.KernelIdeal.nD Cert.KernelIdeal.τ).loc Cert.KernelIdeal.main_arg0)))),
          ?_, ?_⟩
  · exact (θ_run Cert.KernelIdeal.defs _ _).mono
      (fun r h c => ⟨(h c).1.trans (pred_value m ρ c), (h c).2.1.trans (loss_value m ρ c),
        (h c).2.2.1.trans (K_value m ρ c), (h c).2.2.2⟩)
      (Cert.KernelIdeal.WholeRun.run_results (F := Ideal) m ρ)
  · refine (θ_run Cert.ReferenceIdeal.defs _ _).mono
      (fun r h c => ⟨(h c).1.trans ?_, (h c).2.1.trans ?_, (h c).2.2.1.trans ?_, (h c).2.2.2⟩)
      (Cert.ReferenceIdeal.Value.run (F := Ideal) m' ρ')
    · rw [(hagree c).1, (hagree c).2.2]
      exact (Cert.ReferenceIdeal.Read.val_main_v9_eq _ _).trans (Cert.Bridge.pred_eq _ _)
    · rw [(hagree c).1, (hagree c).2.1, (hagree c).2.2]
      exact (Cert.ReferenceIdeal.Read.val_main_v19_eq _ _ _).trans ((Cert.Bridge.loss_eq _ _ _).trans
        (congrArg (fun p => lossOf _ p _) (Cert.Bridge.pred_eq _ _)))
    · rw [(hagree c).1]
      exact (Cert.ReferenceIdeal.Read.val_main_v6_eq _).trans (Cert.Bridge.K_eq _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
